-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x1000 : Shape := ⟨2, ![1000, 1000]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x1000 : S_.BroadcastsInDim S1000x1000 (![] : Fin 0 → Fin S1000x1000.rank)
  reducesTo_S1000x1000_S_d0_1 : S1000x1000.ReducesTo [0, 1] S_

variable [Facts]

def fn {F : FTy → Type} [FloatOps F] (main_arg0 : FVec F S16384x1000 .f32) (main_arg1 : FVec F S1000x1000 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000x1000 .f32 := Host.absf main_arg1
  let main_cst_0 : FVec F S_ .f32 := constant S_ .f32 0x7F800000#32
  let main_v5 : FVec F S1000x1000 .f32 := broadcastInDim S1000x1000 ![] bcast_S_S1000x1000 main_cst_0
  let main_v6 : IVec S1000x1000 1 := cmpf .olt main_v4 main_v5
  let main_c_1 : IVec S_ 1 := constantI S_ 1 1#1
  let main_v7 : IVec S_ 1 := (fun x v => Host.reduce IntOp.andi x v reducesTo_S1000x1000_S_d0_1 h_S_) main_v6 main_c_1
  let main_v8 : IVec S_ 1 := andi main_v3 main_v7
  main_v8
-- ==== Kernel.lean ====
abbrev S16384x1000 : Shape := ⟨2, ![16384, 1000]⟩
abbrev S1000x1000 : Shape := ⟨2, ![1000, 1000]⟩
abbrev S_ : Shape := ⟨0, ![]⟩
abbrev S1000 : Shape := ⟨1, ![1000]⟩
abbrev S1x1000 : Shape := ⟨2, ![1, 1000]⟩
abbrev S1024x1000 : Shape := ⟨2, ![1024, 1000]⟩

abbrev nBuf : Space → Nat
  | .hbm => 22
  | .vmem => 6
  | .smem => 0
  | _ => 0

abbrev bufTy : (tb : Table) → Fin (tcTables nBuf tb) → BufTy
  | .hbm, ⟨0, _⟩ => ⟨S16384x1000, .f32⟩
  | .hbm, ⟨1, _⟩ => ⟨S1000x1000, .f32⟩
  | .hbm, ⟨2, _⟩ => ⟨S_, .f32⟩
  | .hbm, ⟨3, _⟩ => ⟨S1000, .f32⟩
  | .hbm, ⟨4, _⟩ => ⟨S_, .f32⟩
  | .hbm, ⟨5, _⟩ => ⟨S1000, .f32⟩
  | .hbm, ⟨6, _⟩ => ⟨S1000, .f32⟩
  | .hbm, ⟨7, _⟩ => ⟨S_, .f32⟩
  | .hbm, ⟨8, _⟩ => ⟨S1000, .f32⟩
  | .hbm, ⟨9, _⟩ => ⟨S1000, .f32⟩
  | .hbm, ⟨10, _⟩ => ⟨S1x1000, .f32⟩
  | .hbm, ⟨11, _⟩ => ⟨S_, .f32⟩
  | .hbm, ⟨12, _⟩ => ⟨S1000x1000, .f32⟩
  | .hbm, ⟨13, _⟩ => ⟨S1000x1000, .f32⟩
  | .hbm, ⟨14, _⟩ => ⟨S_, .f32⟩
  | .hbm, ⟨15, _⟩ => ⟨S1000x1000, .f32⟩
  | .hbm, ⟨16, _⟩ => ⟨S1000x1000, .f32⟩
  | .hbm, ⟨17, _⟩ => ⟨S_, .f32⟩
  | .hbm, ⟨18, _⟩ => ⟨S1000x1000, .f32⟩
  | .hbm, ⟨19, _⟩ => ⟨S1000x1000, .f32⟩
  | .hbm, ⟨20, _⟩ => ⟨S1000x1000, .bf16⟩
  | .hbm, ⟨21, _⟩ => ⟨S16384x1000, .f32⟩
  | .local _ .vmem, ⟨0, _⟩ => ⟨S1024x1000, .f32⟩
  | .local _ .vmem, ⟨1, _⟩ => ⟨S1024x1000, .f32⟩
  | .local _ .vmem, ⟨2, _⟩ => ⟨S1000x1000, .bf16⟩
  | .local _ .vmem, ⟨3, _⟩ => ⟨S1x1000, .f32⟩
  | .local _ .vmem, ⟨4, _⟩ => ⟨S1024x1000, .f32⟩
  | .local _ .vmem, ⟨5, _⟩ => ⟨S1024x1000, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1000x1000_S1000_d1 : S1000x1000.ReducesTo [1] S1000
  h_S_ : 0 < S_.numel
  bcast_S_S1000 : S_.BroadcastsInDim S1000 (![] : Fin 0 → Fin S1000.rank)
  bcast_S1000_S1x1000_1 : S1000.BroadcastsInDim S1x1000 (![1] : Fin 1 → Fin S1x1000.rank)
  bcast_S_S1000x1000 : S_.BroadcastsInDim S1000x1000 (![] : Fin 0 → Fin S1000x1000.rank)
  bitsLt_bf16_f32 : FTy.bits .bf16 < FTy.bits .f32
  inb_S1024x1000_S1024x1000_0_0 : ∀ a, (![0, 0] : Fin 2 → Nat) a + S1024x1000.size a ≤ S1024x1000.size a
  h_S1024x1000 : 0 < S1024x1000.numel
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  dot_S1024x1000_S1000x1000_S1024x1000_1_1_0_0_n_n_wf : DotDims.WF S1024x1000 S1000x1000 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S16384x1000.size a
  hwx0_0 : ∀ i : grid0.Coords, EltTy.bits .f32 = 32 ∨ (Rect.block (s := S16384x1000) S1024x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x1000.size a ≤ S1000x1000.size a
  hwx0_1 : ∀ i : grid0.Coords, EltTy.bits .bf16 = 32 ∨ (Rect.block (s := S1000x1000) S1000x1000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S16384x1000.size a
  hwx0_3 : ∀ i : grid0.Coords, EltTy.bits .f32 = 32 ∨ (Rect.block (s := S16384x1000) S1024x1000.size (cc0_transform_3 i) (hinb0_3 i)).WholeWords (EltTy.packing .f32)

variable [Facts₀]

def dot_S1024x1000_S1000x1000_S1024x1000_1_1_0_0_n_n : DotDims S1024x1000 S1000x1000 S1024x1000 where
  lhsContracting := [1]
  rhsContracting := [1]
  lhsNonContracting := [0]
  rhsNonContracting := [0]
  lhsBatch := []
  rhsBatch := []
  wf := dot_S1024x1000_S1000x1000_S1024x1000_1_1_0_0_n_n_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1000x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x1000 : Shape := ⟨2, ![1000, 1000]⟩
abbrev S_ : Shape := ⟨0, ![]⟩
abbrev S16384 : Shape := ⟨1, ![16384]⟩
abbrev S16384x1 : Shape := ⟨2, ![16384, 1]⟩
abbrev S1000 : Shape := ⟨1, ![1000]⟩
abbrev S1x1000 : Shape := ⟨2, ![1, 1000]⟩

abbrev nBuf : Space → Nat
  | .hbm => 22
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000x1000, .f32⟩
  | .hbm, ⟨2, _⟩ => ⟨S16384x1000, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S1000, .f32⟩
  | .hbm, ⟨8, _⟩ => ⟨S1x1000, .f32⟩
  | .hbm, ⟨9, _⟩ => ⟨S_, .f32⟩
  | .hbm, ⟨10, _⟩ => ⟨S16384x1000, .f32⟩
  | .hbm, ⟨11, _⟩ => ⟨S16384x1000, .f32⟩
  | .hbm, ⟨12, _⟩ => ⟨S_, .f32⟩
  | .hbm, ⟨13, _⟩ => ⟨S16384x1000, .f32⟩
  | .hbm, ⟨14, _⟩ => ⟨S16384x1000, .f32⟩
  | .hbm, ⟨15, _⟩ => ⟨S16384x1000, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S_, .f32⟩
  | .hbm, ⟨20, _⟩ => ⟨S16384x1000, .f32⟩
  | .hbm, ⟨21, _⟩ => ⟨S16384x1000, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S16384x1000_S16384_d1 : S16384x1000.ReducesTo [1] S16384
  h_S_ : 0 < S_.numel
  bcast_S16384_S16384x1_0 : S16384.BroadcastsInDim S16384x1 (![0] : Fin 1 → Fin S16384x1.rank)
  reducesTo_S1000x1000_S1000_d1 : S1000x1000.ReducesTo [1] S1000
  bcast_S1000_S1x1000_1 : S1000.BroadcastsInDim S1x1000 (![1] : Fin 1 → Fin S1x1000.rank)
  bcast_S_S16384x1000 : S_.BroadcastsInDim S16384x1000 (![] : Fin 0 → Fin S16384x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  dot_S16384x1000_S1000x1000_S16384x1000_1_1_0_0_n_n_wf : DotDims.WF S16384x1000 S1000x1000 S16384x1000 [1] [1] [0] [0] [] []

variable [Facts₀]

def dot_S16384x1000_S1000x1000_S16384x1000_1_1_0_0_n_n : DotDims S16384x1000 S1000x1000 S16384x1000 where
  lhsContracting := [1]
  rhsContracting := [1]
  lhsNonContracting := [0]
  rhsNonContracting := [0]
  lhsBatch := []
  rhsBatch := []
  wf := dot_S16384x1000_S1000x1000_S16384x1000_1_1_0_0_n_n_wf

class Facts : Prop extends Facts₀ where

variable [Facts]
-- ==== Proof.LibRealValued.lean ====
/-
  Real-valued extended reals.

  An extended real is REAL when it is neither infinity. Finite float inputs are real entries; sums, differences,
  products, finite sums, maxima and exponentials of real entries are real, so every intermediate of a program built
  from those operations on finite inputs — a matrix product plus a bias, a score, a softmax weight — is real, and a
  whole array of real entries is the coercion of one real-valued function (`exists_real_fun`). This is what lets an
  identity proved over the reals (distributivity, cancelling a positive factor, exp of a sum) be used on the extended
  reals, where it fails at the infinities.
-/
import Idealize.ShloMosaic.PureOps.Ideal

noncomputable section

namespace Cert.Lib.RealValued

open Idealize.ShloMosaic

/-- `x` is the coercion of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Neither infinity: real. -/
theorem isReal_of_ne {x : EReal} (ht : x ≠ ⊤) (hb : x ≠ ⊥) : IsReal x :=
  ⟨x.toReal, (EReal.coe_toReal ht hb).symm⟩

/-- The element fact a "finite input" precondition states, `|x| < +∞` with `|x| = max x (-x)`: the entry is real. -/
theorem isReal_of_abs_lt_top {x : EReal} (h : max x (-x) < ⊤) : IsReal x := by
  refine isReal_of_ne (fun e => ?_) (fun e => ?_)
  · rw [e] at h; exact absurd h (by simp)
  · rw [e] at h; exact absurd h (by simp)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

theorem IsReal.exp {x : EReal} (hx : IsReal x) : IsReal (Ideal.exp x) := by
  obtain ⟨a, rfl⟩ := hx; exact ⟨Real.exp a, rfl⟩

/-- A finite sum of real entries is real. -/
theorem IsReal.sum {ι : Type*} (S : Finset ι) {f : ι → EReal} (h : ∀ i ∈ S, IsReal (f i)) :
    IsReal (∑ i ∈ S, f i) := by
  classical
  induction S using Finset.induction_on with
  | empty => simpa using isReal_zero
  | insert a S ha ih =>
    rw [Finset.sum_insert ha]
    exact (h a (Finset.mem_insert_self a S)).add (ih fun i hi => h i (Finset.mem_insert_of_mem hi))

/-- A contraction of two arrays of real entries — one entry of a matrix product into a real accumulator — is real. -/
theorem isReal_dot {κ : Type*} [Fintype κ] {x y : κ → EReal} {acc : EReal} (hacc : IsReal acc)
    (hx : ∀ k, IsReal (x k)) (hy : ∀ k, IsReal (y k)) : IsReal (acc + ∑ k, x k * y k) :=
  hacc.add (IsReal.sum _ fun k _ => (hx k).mul (hy k))

/-- An array of real entries is the coercion of one real-valued function. -/
theorem exists_real_fun {α : Type*} {f : α → EReal} (h : ∀ a, IsReal (f a)) :
    ∃ g : α → ℝ, ∀ a, f a = ((g a : ℝ) : EReal) :=
  ⟨fun a => (h a).choose, fun a => (h a).choose_spec⟩

end Cert.Lib.RealValued

end
-- ==== Proof.FiniteInputs.lean ====
/-
  Finite inputs are real entries.

  The precondition says of each argument array that every entry `x` has `|x| < +∞`, where `|x| = max x (−x)`, and that
  both statements hold: a conjunction of two "for all entries" tests, each a reduction by `and` of the entrywise
  comparisons into one truth value. Read back: every entry of the feature array and every entry of the code book is an
  extended real that is neither infinity, that is, a real number. This is what allows distributivity to be used.
-/
import proofs.«166601_j24867860644037_2_alg».proof.Pre_finite_inputs
import proofs.«166601_j24867860644037_2_alg».proof.Proof.LibRealValued
import Idealize.ShloMosaic.Lib.ReduceAll
import Idealize.ShloMosaic.Lib.Affine
import Idealize.ShloMosaic.Lib.ValueIdx
import Idealize.ShloMosaic.PureOps.Ideal

noncomputable section

namespace Cert.Score

open Idealize.ShloMosaic Cert.Lib.RealValued

/-- The scalar shape has one index. -/
instance : Subsingleton Cert.Pre_finite_inputs.S_.Idx := ⟨fun a b => funext fun d => d.elim0⟩

/-- The bound the entries are compared with is `+∞`. -/
theorem ofBits_inf : Ideal.ofBits .f32 0x7F800000#32 = (⊤ : EReal) := by
  simp [Ideal.ofBits, Ideal.ieee]

/-- One comparison `|x| < +∞` that came out true: `x` is real. -/
theorem isReal_of_cmp {x : EReal}
    (e : Ideal.cmp .olt (max x (-x)) (Ideal.ofBits .f32 0x7F800000#32) = 1#1) : IsReal x := by
  rw [ofBits_inf] at e
  have e' : BitVec.ofBool (decide (max x (-x) < (⊤ : EReal))) = 1#1 := e
  refine isReal_of_abs_lt_top (of_decide_eq_true ?_)
  generalize decide (max x (-x) < (⊤ : EReal)) = b at e'
  cases b
  · exact absurd e' (by decide)
  · rfl

/-- The precondition, read back: every entry of both argument arrays is real. -/
theorem real_of_pre [Cert.Pre_finite_inputs.Facts] (x0 : FVec Ideal Cert.Pre_finite_inputs.S16384x1000 .f32)
    (x1 : FVec Ideal Cert.Pre_finite_inputs.S1000x1000 .f32)
    (h : Cert.Pre_finite_inputs.fn (F := Ideal) x0 x1 = fun _ => 1#1) :
    (∀ i, IsReal (x0 i)) ∧ (∀ j, IsReal (x1 j)) := by
  have h0 := congrFun h ValueIdx.ix0
  dsimp only [Cert.Pre_finite_inputs.fn] at h0
  obtain ⟨ha, hb⟩ := IntOp.andi_eq_one.mp h0
  exact ⟨fun i => isReal_of_cmp (Host.reduce_andi_all _ _ _ _ _ ha i),
    fun j => isReal_of_cmp (Host.reduce_andi_all _ _ _ _ _ hb j)⟩

end Cert.Score

end
-- ==== Proof.KernelGlue.lean ====
/-
  The weights and the bias as the kernel's region finds them.

  Before the region runs, the host computes from the code book `c` alone the two arrays the kernel keeps resident:
  the weights `W(q,k) = (2·c(q,k) − 1) / 1000` (narrowed to a 16-bit format, which is the identity on extended reals) and
  the bias row `bias(0,q) = (1000 − Σ_k c(q,k)) / 1000`, a per-code number given a unit row axis. Here each is read at an
  index as a formula over the code book's entries; the row sum starts from the zero literal.
-/
import proofs.«166601_j24867860644037_2_alg».proof.Proof.Gen.KernelIdeal.Frame
import Idealize.ShloMosaic.Lib.StableHlo.Run
import Idealize.ShloMosaic.Lib.ValueIdx
import Idealize.ShloMosaic.Lib.Pipeline.Value
import Idealize.ShloMosaic.PureOps.Ideal.Laws

noncomputable section

namespace Cert.Score.Glue

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The feature array as launched. -/
abbrev features (c : Dev nD) : FVec Ideal S16384x1000 .f32 := m ((c : Thread nD τ).loc main_arg0)

/-- The code book as launched. -/
abbrev codeBook (c : Dev nD) : FVec Ideal S1000x1000 .f32 := m ((c : Thread nD τ).loc main_arg1)

/-- The weight array at region entry, as the host operations' term of the code book. -/
theorem weights_eq (c : Dev nD) :
    (V m c main_v12 : S1000x1000.Idx → EReal)
      = truncf .bf16 (Host.divf (subf (mulf (broadcastInDim S1000x1000 ![] bcast_S_S1000x1000 (constant (F := Ideal) S_ .f32 0x40000000#32))
            (m ((c : Thread nD τ).loc main_arg1)))
          (broadcastInDim S1000x1000 ![] bcast_S_S1000x1000 (constant (F := Ideal) S_ .f32 0x3F800000#32)))
        (broadcastInDim S1000x1000 ![] bcast_S_S1000x1000 (constant (F := Ideal) S_ .f32 0x447A0000#32))) bitsLt_bf16_f32 := by
  dsimp only [Gen.V, Gen.hostOps0]
  after_results

/-- The bias row at region entry, as the host operations' term of the code book. -/
theorem bias_eq (c : Dev nD) :
    (V m c main_v5 : S1x1000.Idx → EReal)
      = broadcastInDim S1x1000 ![1] bcast_S1000_S1x1000_1
          (Host.divf (subf (broadcastInDim S1000 ![] bcast_S_S1000 (constant (F := Ideal) S_ .f32 0x447A0000#32))
              (Host.reduceAdd (m ((c : Thread nD τ).loc main_arg1)) (constant (F := Ideal) S_ .f32 0x00000000#32)
                reducesTo_S1000x1000_S1000_d1 h_S_))
            (broadcastInDim S1000 ![] bcast_S_S1000 (constant (F := Ideal) S_ .f32 0x447A0000#32))) := by
  dsimp only [Gen.V, Gen.hostOps0]
  after_results

/-- A row sum of the code book, started from the zero literal. -/
theorem rowsum_apply (x1 : FVec Ideal S1000x1000 .f32) (q : Fin 1000) :
    Host.reduceAdd x1 (constant (F := Ideal) S_ .f32 0x00000000#32) reducesTo_S1000x1000_S1000_d1 h_S_ (ix1 q)
      = Ideal.ofBits .f32 0x00000000#32 + ∑ k : Fin 1000, x1 (ix2 q k) := by
  simp only [Host.reduceAdd, Ideal.hostReduceAdd_def]
  rw [Ideal.hostReduceAdd_single reducesTo_S1000x1000_S1000_d1 (by decide)]
  refine congrArg (_ + ·) (Finset.sum_congr rfl fun k _ => ?_)
  exact congrArg x1 (funext fun a => Fin.ext (by match a with | ⟨0, _⟩ => rfl | ⟨1, _⟩ => rfl))

/-- The weight of code `q` at feature `k`: `(2·c(q,k) − 1) / 1000`. -/
theorem weights_apply (c : Dev nD) (q k : Fin 1000) :
    (V m c main_v12 : S1000x1000.Idx → EReal) (ix2 q k)
      = Ideal.div (Ideal.ofBits .f32 0x40000000#32 * codeBook m c (ix2 q k) - Ideal.ofBits .f32 0x3F800000#32)
          (Ideal.ofBits .f32 0x447A0000#32) := by
  rw [weights_eq]
  rfl

/-- The bias of code `q`: `(1000 − Σ_k c(q,k)) / 1000`. -/
theorem bias_apply (c : Dev nD) (q : Fin 1000) :
    (V m c main_v5 : S1x1000.Idx → EReal) (ix2 (0 : Fin 1) q)
      = Ideal.div (Ideal.ofBits .f32 0x447A0000#32
            - (Ideal.ofBits .f32 0x00000000#32 + ∑ k : Fin 1000, codeBook m c (ix2 q k)))
          (Ideal.ofBits .f32 0x447A0000#32) := by
  rw [bias_eq]
  refine (broadcastInDim_apply _ bcast_S1000_S1x1000_1 _ (ix2 (0 : Fin 1) q) (ix1 q) fun a => ?_).trans ?_
  · match a with
    | ⟨0, _⟩ => show q.val = if (1000 : Nat) = 1 then 0 else q.val; rw [if_neg (by decide)]
  · show Ideal.div (Ideal.ofBits .f32 0x447A0000#32 - Host.reduceAdd (codeBook m c)
        (constant (F := Ideal) S_ .f32 0x00000000#32) reducesTo_S1000x1000_S1000_d1 h_S_ (ix1 q)) (Ideal.ofBits .f32 0x447A0000#32) = _
    rw [rowsum_apply]

end Cert.Score.Glue

end
-- ==== Proof.KernelPayload.lean ====
/-
  What the kernel body stores, at an index.

  On a block of 1024 feature rows the body narrows the block to a 16-bit format (the identity on extended reals),
  multiplies it against the resident weights contracting the feature axis of both — entry `(p, q)` of the product is
  `Σ_k x(p,k)·W(q,k)`, accumulated from zero — and adds the bias row broadcast over the 1024 rows. So the stored value
  at `(p, q)` is `Σ_k x(p,k)·W(q,k) + bias(0,q)`.
-/
import proofs.«166601_j24867860644037_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Score.Payload

open Cert.KernelIdeal Cert.KernelIdeal.Gen
open Idealize.ShloMosaic Idealize.ShloMosaic.ValueIdx

/-- The left operand's row is the output's row. -/
theorem lhs_row (i : S1024x1000.Idx) (κ : dot_S1024x1000_S1000x1000_S1024x1000_1_1_0_0_n_n.contr.Idx) :
    (dot_S1024x1000_S1000x1000_S1024x1000_1_1_0_0_n_n.lhsIdx i κ 0).val = (i 0).val := by
  unfold DotDims.lhsIdx
  rw [dif_neg (show ¬(0 : Fin S1024x1000.rank) ∈ dot_S1024x1000_S1000x1000_S1024x1000_1_1_0_0_n_n.lhsBatch by decide),
    dif_pos (show (0 : Fin S1024x1000.rank) ∈ dot_S1024x1000_S1000x1000_S1024x1000_1_1_0_0_n_n.lhsNonContracting by decide)]
  rfl

/-- The right operand's row is the output's column. -/
theorem rhs_row (i : S1024x1000.Idx) (κ : dot_S1024x1000_S1000x1000_S1024x1000_1_1_0_0_n_n.contr.Idx) :
    (dot_S1024x1000_S1000x1000_S1024x1000_1_1_0_0_n_n.rhsIdx i κ 0).val = (i 1).val := by
  unfold DotDims.rhsIdx
  rw [dif_neg (show ¬(0 : Fin S1000x1000.rank) ∈ dot_S1024x1000_S1000x1000_S1024x1000_1_1_0_0_n_n.rhsBatch by decide),
    dif_pos (show (0 : Fin S1000x1000.rank) ∈ dot_S1024x1000_S1000x1000_S1024x1000_1_1_0_0_n_n.rhsNonContracting by decide)]
  rfl

/-- The product into the zero accumulator at `(p, q)`: the contraction of row `p` of the left operand against row `q`
    of the right one. -/
theorem product_apply (l : FVec Ideal S1024x1000 .bf16) (r : FVec Ideal S1000x1000 .bf16) (p : Fin 1024) (q : Fin 1000) :
    FloatOps.matmul dot_S1024x1000_S1000x1000_S1024x1000_1_1_0_0_n_n none l r (constant S1024x1000 .f32 0x00000000#32) (ix2 p q)
      = ∑ k : Fin 1000, l (ix2 p k) * r (ix2 q k) := by
  rw [Ideal.matmul_constant_zero_apply, ← Equiv.sum_comp (contrEquiv1 dot_S1024x1000_S1000x1000_S1024x1000_1_1_0_0_n_n 1000 rfl rfl).symm]
  refine Finset.sum_congr rfl fun k _ => ?_
  have hk := contrEquiv1_symm_val dot_S1024x1000_S1000x1000_S1024x1000_1_1_0_0_n_n 1000 rfl rfl k
  have el : dot_S1024x1000_S1000x1000_S1024x1000_1_1_0_0_n_n.lhsIdx (ix2 p q) ((contrEquiv1 dot_S1024x1000_S1000x1000_S1024x1000_1_1_0_0_n_n 1000 rfl rfl).symm k) = ix2 p k :=
    funext fun a => Fin.ext (by
      match a with
      | ⟨0, _⟩ => exact lhs_row _ _
      | ⟨1, _⟩ => exact (dot_S1024x1000_S1000x1000_S1024x1000_1_1_0_0_n_n.lhsIdx_val_of_single rfl _ _).trans hk)
  have er : dot_S1024x1000_S1000x1000_S1024x1000_1_1_0_0_n_n.rhsIdx (ix2 p q) ((contrEquiv1 dot_S1024x1000_S1000x1000_S1024x1000_1_1_0_0_n_n 1000 rfl rfl).symm k) = ix2 q k :=
    funext fun a => Fin.ext (by
      match a with
      | ⟨0, _⟩ => exact rhs_row _ _
      | ⟨1, _⟩ => exact (dot_S1024x1000_S1000x1000_S1024x1000_1_1_0_0_n_n.rhsIdx_val_of_single rfl _ _).trans hk)
  rw [el, er]

/-- The body's stored value at `(p, q)`. -/
theorem payload_apply (v0 : Vec Ideal S1024x1000 .f32) (v2 : Vec Ideal S1000x1000 .bf16) (v5 : Vec Ideal S1x1000 .f32)
    (p : Fin 1024) (q : Fin 1000) :
    k0_pay1 v0 v2 v5 (ix2 p q) = (∑ k : Fin 1000, v0 (ix2 p k) * v2 (ix2 q k)) + v5 (ix2 (0 : Fin 1) q) := by
  unfold k0_pay1
  show (FloatOps.matmul (F := Ideal) dot_S1024x1000_S1000x1000_S1024x1000_1_1_0_0_n_n none (truncf .bf16 (v0 : FVec Ideal S1024x1000 .f32) bitsLt_bf16_f32)
        (shapeCast S1000x1000 (v2 : FVec Ideal S1000x1000 .bf16) shapeCasts_S1000x1000_S1000x1000)
        (constant S1024x1000 .f32 0x00000000#32) (ix2 p q) : EReal)
      + (broadcastTo S1024x1000 (shapeCast S1x1000 (v5 : FVec Ideal S1x1000 .f32) shapeCasts_S1x1000_S1x1000)
          broadcasts_S1x1000_S1024x1000 (ix2 p q) : EReal) = _
  refine congrArg₂ (· + ·) ?_ ?_
  · refine (product_apply _ _ p q).trans ?_
    rw [shapeCast_self]
    rfl
  · refine (broadcastTo_1b_ab_apply _ _ p q).trans ?_
    rw [shapeCast_self]

end Cert.Score.Payload

end
-- ==== Proof.KernelValue.lean ====
/-
  The kernel's whole result array.

  The grid has 16 points; point `t` reads block `t` of the feature array (rows `1024·t … 1024·t + 1023`, all 1000
  features), the whole weight array and the whole bias row, and writes block `t` of the result. Entry `(p, q)` of what it
  writes is `Σ_k x(p,k)·W(q,k) + bias(0,q)` with `x` the feature block, so it is entry `(1024·t + p, q)` of ONE function
  of the three arrays, `affine o W b (n, q) = Σ_k o(n,k)·W(q,k) + b(0,q)`. The 16 blocks tile the 16384 rows (row `n` is in
  block `n / 1024`), so after the run the result array is `affine` of the feature array as launched and of the weights
  and bias as the region found them.
-/
import proofs.«166601_j24867860644037_2_alg».proof.Proof.Gen.KernelIdeal.Value
import proofs.«166601_j24867860644037_2_alg».proof.Proof.KernelPayload

set_option maxRecDepth 16384

noncomputable section

namespace Cert.Score.Kernel

open Cert.KernelIdeal Cert.KernelIdeal.Gen
open Idealize.ShloMosaic Idealize.ShloMosaic.TcCoe Idealize.SL.Sem Idealize.ShloMosaic.ValueIdx
open Idealize.ShloMosaic.Pipeline (Dat)

/-- The affine map: the contraction of feature row `n` against weight row `q`, plus the bias of `q`. -/
def affine (o : FVec Ideal S16384x1000 .f32) (W : FVec Ideal S1000x1000 .bf16) (b : FVec Ideal S1x1000 .f32) :
    FVec Ideal S16384x1000 .f32 :=
  fun i => (∑ k : Fin 1000, o (ix2 (i 0) k) * W (ix2 (i 1) k)) + b (ix2 (0 : Fin 1) (i 1))

theorem origin : (![0, 0] : Fin 2 → Nat) = fun _ => 0 := funext fun a => by fin_cases a <;> rfl

/-- One stored entry is one entry of the affine map, when the body's three operands are the corresponding rows of the
    three arrays. -/
theorem entry_eq (x0 : Vec Ideal S1024x1000 .f32) (x1 : Vec Ideal S1000x1000 .bf16) (x2 : Vec Ideal S1x1000 .f32)
    (o : FVec Ideal S16384x1000 .f32) (W : FVec Ideal S1000x1000 .bf16) (b : FVec Ideal S1x1000 .f32)
    (p : Fin 1024) (q : Fin 1000) (n : Fin 16384)
    (h0 : ∀ k : Fin 1000, x0 (ix2 p k) = o (ix2 n k))
    (h1 : ∀ k : Fin 1000, x1 (ix2 q k) = W (ix2 q k))
    (h2 : x2 (ix2 (0 : Fin 1) q) = b (ix2 (0 : Fin 1) q)) :
    k0_pay1 x0 x1 x2 (ix2 p q) = affine o W b (ix2 n q) := by
  rw [Payload.payload_apply]
  show _ = (∑ k : Fin 1000, o (ix2 n k) * W (ix2 q k)) + b (ix2 (0 : Fin 1) q)
  rw [h2]
  exact congrArg (· + _) (Finset.sum_congr rfl fun k _ => by rw [h0 k, h1 k])

/-- The same at any index `y` of the block and any index `i` of the array in the same column. -/
theorem entry_eq_at (x0 : Vec Ideal S1024x1000 .f32) (x1 : Vec Ideal S1000x1000 .bf16) (x2 : Vec Ideal S1x1000 .f32)
    (o : FVec Ideal S16384x1000 .f32) (W : FVec Ideal S1000x1000 .bf16) (b : FVec Ideal S1x1000 .f32)
    (y : S1024x1000.Idx) (i : S16384x1000.Idx) (hcol : i 1 = y 1)
    (h0 : ∀ k : Fin 1000, x0 (ix2 (y 0) k) = o (ix2 (i 0) k))
    (h1 : ∀ k : Fin 1000, x1 (ix2 (y 1) k) = W (ix2 (y 1) k))
    (h2 : x2 (ix2 (0 : Fin 1) (y 1)) = b (ix2 (0 : Fin 1) (y 1))) :
    k0_pay1 x0 x1 x2 y = affine o W b i := by
  have e1 : y = ix2 (y 0) (y 1) := eq_ix2 y
  have e2 : i = ix2 (i 0) (y 1) := by rw [← hcol]; exact eq_ix2 i
  calc k0_pay1 x0 x1 x2 y = k0_pay1 x0 x1 x2 (ix2 (y 0) (y 1)) := congrArg _ e1
    _ = affine o W b (ix2 (i 0) (y 1)) := entry_eq x0 x1 x2 o W b (y 0) (y 1) (i 0) h0 h1 h2
    _ = affine o W b i := congrArg _ e2.symm

variable (m : (ℓ : Loc nD τ sig) → Buf (Elt Ideal) ℓ) (ρ : Dev nD → PrngReg)

/-- The index maps over the grid: the feature window and the result window move together, one block of rows per point,
    never along the features; the weight and bias windows stay at the origin. -/
theorem index_facts : ∀ t : Fin cfg0.N, win0_0.index t (0 : Fin 2) = win0_3.index t (0 : Fin 2)
    ∧ win0_0.index t (1 : Fin 2) = 0
    ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val :=
  (by decide +kernel : ∀ t : Fin grid0.N, _)

/-- What point `t` writes back is block `t` of the affine map of the arrays as the region finds them. -/
theorem flushed_eq (c : Dev nD) (t : Fin cfg0.N) :
    (dats m 0 c).flushed 3 t
      = ((cfg0.win 3).blk t).view.read (Elt Ideal) (affine (V m c main_arg0) (V m c main_v12) (V m c main_v5)) := by
  rw [Value.flushed3]
  unfold out0_3
  rw [View.canon_unit_zero origin]
  simp only [View.ld_unit_zero (S := S1024x1000) origin, View.ld_unit_zero (S := S1000x1000) origin,
    View.ld_unit_zero (S := S1x1000) origin]
  obtain ⟨e0, e1, e2, e3, e4, e5, e6, -⟩ := index_facts t
  funext j
  show k0_pay1 (iblk m c 0 t) (iblk m c 1 t) (iblk m c 2 t) j
    = affine (V m c main_arg0) (V m c main_v12) (V m c main_v5) (((cfg0.win 3).blk t).view.emb j)
  refine entry_eq_at _ _ _ _ _ _ j _ ?_ ?_ ?_ ?_
  · apply Fin.ext
    show win0_3.index t (1 : Fin 2) * 1000 + 1 * (j 1).val = (j 1).val
    omega
  · intro k
    show V m c main_arg0 (((cfg0.win 0).blk t).view.emb (ix2 (j 0) k)) = V m c main_arg0 (ix2 ((((cfg0.win 3).blk t).view.emb j) 0) k)
    refine congrArg _ (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1000 + 1 * k.val = k.val; omega
  · intro k
    show V m c main_v12 (((cfg0.win 1).blk t).view.emb (ix2 (j 1) k)) = V m c main_v12 (ix2 (j 1) k)
    refine congrArg _ (funext fun a => Fin.ext ?_)
    match a with
    | ⟨0, _⟩ => show win0_1.index t (0 : Fin 2) * 1000 + 1 * (j 1).val = (j 1).val; omega
    | ⟨1, _⟩ => show win0_1.index t (1 : Fin 2) * 1000 + 1 * k.val = k.val; omega
  · show V m c main_v5 (((cfg0.win 2).blk t).view.emb (ix2 (0 : Fin 1) (j 1))) = V m c main_v5 (ix2 (0 : Fin 1) (j 1))
    refine congrArg _ (funext fun a => Fin.ext ?_)
    match a with
    | ⟨0, _⟩ => show win0_2.index t (0 : Fin 2) * 1 + 1 * 0 = 0; omega
    | ⟨1, _⟩ => show win0_2.index t (1 : Fin 2) * 1000 + 1 * (j 1).val = (j 1).val; omega

/-- An index of the result array is in point `t`'s block iff each coordinate is in the block's range on its axis. -/
theorem mem_block (t : Fin cfg0.N) (i : S16384x1000.Idx) :
    i ∈ ((cfg0.win 3).blk t).view.set ↔ ∀ a : Fin 2, win0_3.index t a * S1024x1000.size a ≤ (i a).val
      ∧ (i a).val < win0_3.index t a * S1024x1000.size a + S1024x1000.size a := by
  show i ∈ ((View.whole main_v13).slice (win0_3.rect t)).set ↔ _
  rw [View.set_slice_whole, Rect.mem_set_unit]
  exact Iff.rfl

/-- Every index of the result array is in some point's block: row `n` is in block `n / 1024`. -/
theorem cover (i : S16384x1000.Idx) :
    ∃ t : Fin cfg0.N, (cfg0.win 3).flush t = true ∧ i ∈ ((cfg0.win 3).blk t).view.set := by
  have hi0 : (i 0).val < 16384 := (i 0).isLt
  have hi1 : (i 1).val < 1000 := (i 1).isLt
  have hN : (i 0).val / 1024 < grid0.N := by rw [N_0]; omega
  obtain ⟨-, -, e2, -, -, -, -, e7⟩ := index_facts ⟨(i 0).val / 1024, hN⟩
  have e7' : win0_3.index ⟨(i 0).val / 1024, hN⟩ (0 : Fin 2) = (i 0).val / 1024 := e7
  refine ⟨⟨(i 0).val / 1024, hN⟩, flush0_3 _, ?_⟩
  rw [mem_block]
  intro a
  match a with
  | ⟨0, _⟩ =>
    show win0_3.index ⟨(i 0).val / 1024, hN⟩ (0 : Fin 2) * 1024 ≤ (i 0).val
      ∧ (i 0).val < win0_3.index ⟨(i 0).val / 1024, hN⟩ (0 : Fin 2) * 1024 + 1024
    omega
  | ⟨1, _⟩ =>
    show win0_3.index ⟨(i 0).val / 1024, hN⟩ (1 : Fin 2) * 1000 ≤ (i 1).val
      ∧ (i 1).val < win0_3.index ⟨(i 0).val / 1024, hN⟩ (1 : Fin 2) * 1000 + 1000
    omega

/-- The result array after the run: the affine map of the feature array as launched, the weights and the bias. -/
theorem final (c : Dev nD) :
    (dats m 0 c).arrAt 3 cfg0.N = affine (m ((c : Thread nD τ).loc main_arg0)) (V m c main_v12) (V m c main_v5) := by
  rw [← V_main_arg0 m c]
  exact (dats m 0 c).arrAt_eq_of_cover 3 _ (fun t _ => flushed_eq m c t) cover

/-- The kernel's run with its result array named. -/
theorem run : θ_run defs (onTc (τ := τ) (main (F := Ideal))) ⟨m, fun _ => 0, ρ⟩ fun r => ∀ c : Dev nD,
      r.2.mem ((c : Thread nD τ).loc main_v13) = affine (m ((c : Thread nD τ).loc main_arg0)) (V m c main_v12) (V m c main_v5)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Score.Kernel

end
-- ==== Proof.ReferenceScore.lean ====
/-
  The reference's score at an index.

  The reference computes, for feature row `n` and code `q`, the contraction `Σ_k o(n,k)·c(q,k)` of the two rows, the
  row sums `Σ_k o(n,k)` and `Σ_k c(q,k)` (each started from the zero literal), broadcasts the first along the codes and
  the second along the rows, and combines them as `((2·dot + 1000) − rowsum_o) − rowsum_c`, divided by 1000. Reading the
  last stage at `(n, q)` one operation at a time gives exactly that formula over the entries of the two arrays.
-/
import proofs.«166601_j24867860644037_2_alg».proof.Proof.Gen.ReferenceIdeal.Read
import Idealize.ShloMosaic.Lib.ValueIdx

noncomputable section

namespace Cert.Score.Reference

open Cert.ReferenceIdeal Cert.ReferenceIdeal.Gen Cert.ReferenceIdeal.Read
open Idealize.ShloMosaic Idealize.ShloMosaic.ValueIdx

/-- The reference's result at `(n, q)`: the score of feature row `n` against code `q`. -/
theorem score_apply (x0 : FVec Ideal S16384x1000 .f32) (x1 : FVec Ideal S1000x1000 .f32) (n : Fin 16384) (q : Fin 1000) :
    val_main_v14 (F := Ideal) x0 x1 (ix2 n q)
      = Ideal.div (Ideal.ofBits .f32 0x40000000#32 * (∑ k : Fin 1000, x0 (ix2 n k) * x1 (ix2 q k)) + Ideal.ofBits .f32 0x447A0000#32
          - (Ideal.ofBits .f32 0x00000000#32 + ∑ k : Fin 1000, x0 (ix2 n k))
          - (Ideal.ofBits .f32 0x00000000#32 + ∑ k : Fin 1000, x1 (ix2 q k)))
        (Ideal.ofBits .f32 0x447A0000#32) := by
  have el : ∀ k : Fin 1000, lidx_main_v0 (ix2 n q) k = ix2 n k := fun k =>
    funext fun a => Fin.ext (by match a with | ⟨0, _⟩ => rfl | ⟨1, _⟩ => rfl)
  have er : ∀ k : Fin 1000, ridx_main_v0 (ix2 n q) k = ix2 q k := fun k =>
    funext fun a => Fin.ext (by match a with | ⟨0, _⟩ => rfl | ⟨1, _⟩ => rfl)
  have e1 : ∀ k : Fin 1000, idx_main_v1 (idx_main_v2 (idx_main_v9 (ix2 n q))) k = ix2 n k := fun k =>
    funext fun a => Fin.ext (by match a with | ⟨0, _⟩ => rfl | ⟨1, _⟩ => rfl)
  have e3 : ∀ k : Fin 1000, idx_main_v3 (idx_main_v4 (idx_main_v11 (ix2 n q))) k = ix2 q k := fun k =>
    funext fun a => Fin.ext (by match a with | ⟨0, _⟩ => rfl | ⟨1, _⟩ => rfl)
  rw [val_main_v14_apply, val_main_v12_apply, val_main_v10_apply, val_main_v8_apply, val_main_v6_apply,
    val_main_v5_apply, val_main_v0_apply, val_main_v7_apply, val_main_v9_apply, val_main_v2_apply, val_main_v1_apply,
    val_main_v11_apply, val_main_v4_apply, val_main_v3_apply, val_main_v13_apply]
  simp only [el, er, e1, e3, val_main_cst_apply, val_main_cst_0_apply, val_main_cst_1_apply, val_main_cst_2_apply,
    val_main_cst_3_apply, Ideal.hostDivf_def, Ideal.subf_def, Ideal.addf_def, Ideal.mulf_def, Ideal.ofBits_def]

end Cert.Score.Reference

end
-- ==== Proof.ScoreLaw.lean ====
/-
  The score and its affine form.

  For a row `a` of features and a row `b` of a code book, both over the same finite index set, the score is
      (2 · Σ a·b + C − Σ a − Σ b) / K,
  the negated Hamming-style distance between `a` and `b` divided by the number of codes. Distributing the sum, the same
  number is an affine function of `a`:
      Σ a · ((2·b − 1) / K)  +  (C − Σ b) / K,
  a contraction of `a` against the fixed weights `(2·b − 1)/K` plus a bias that depends on `b` alone. The identity uses
  distributivity, which fails on the extended reals at the infinities, so it is stated for real entries: the coercions are
  pushed outward, and the remaining equation is one of real numbers. Here `C = K = 1000`, and the four float literals
  involved (0, 1, 2, 1000) are exact.
-/
import Idealize.ShloMosaic.PureOps.Ideal

noncomputable section

namespace Cert.Score

open Idealize.ShloMosaic

/-! ## The literals -/

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_thousand : Ideal.ofBits .f32 0x447A0000#32 = ((1000 : ℝ) : EReal) := by
  simp [Ideal.ofBits, Ideal.ieee, -EReal.coe_mul]; norm_num

/-! ## Sums of real entries -/

/-- A finite sum of coerced reals is the coercion of the real sum. -/
theorem coe_sum {κ : Type*} (S : Finset κ) (f : κ → ℝ) :
    ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

/-- Over the reals: the affine form of the score. -/
theorem real_law {κ : Type*} [Fintype κ] (a b : κ → ℝ) :
    ∑ k, a k * ((2 * b k - 1) * (1 / 1000)) + (1000 - (0 + ∑ k, b k)) * (1 / 1000)
      = (2 * ∑ k, a k * b k + 1000 - (0 + ∑ k, a k) - (0 + ∑ k, b k)) * (1 / 1000) := by
  have h : ∑ k, a k * ((2 * b k - 1) * (1 / 1000)) = (2 * ∑ k, a k * b k - ∑ k, a k) * (1 / 1000) := by
    rw [Finset.mul_sum, ← Finset.sum_sub_distrib, Finset.sum_mul]
    exact Finset.sum_congr rfl fun k _ => by ring
  rw [h]; ring

/-- On the extended reals, for real entries: the contraction against the weights `(2·b − 1)/1000` plus the bias
    `(1000 − Σ b)/1000` is the score `(2·Σ a·b + 1000 − Σ a − Σ b)/1000`, each side spelt with the operations and
    literals as they are applied. -/
theorem score_law {κ : Type*} [Fintype κ] (a b : κ → ℝ) :
    (∑ k, ((a k : ℝ) : EReal) * Ideal.div (Ideal.ofBits .f32 0x40000000#32 * ((b k : ℝ) : EReal) - Ideal.ofBits .f32 0x3F800000#32)
        (Ideal.ofBits .f32 0x447A0000#32))
      + Ideal.div (Ideal.ofBits .f32 0x447A0000#32 - (Ideal.ofBits .f32 0x00000000#32 + ∑ k, ((b k : ℝ) : EReal)))
        (Ideal.ofBits .f32 0x447A0000#32)
    = Ideal.div (Ideal.ofBits .f32 0x40000000#32 * (∑ k, ((a k : ℝ) : EReal) * ((b k : ℝ) : EReal)) + Ideal.ofBits .f32 0x447A0000#32
          - (Ideal.ofBits .f32 0x00000000#32 + ∑ k, ((a k : ℝ) : EReal))
          - (Ideal.ofBits .f32 0x00000000#32 + ∑ k, ((b k : ℝ) : EReal)))
        (Ideal.ofBits .f32 0x447A0000#32) := by
  rw [ofBits_zero, ofBits_one, ofBits_two, ofBits_thousand]
  simp only [Ideal.div_coe (by norm_num : (1000 : ℝ) ≠ 0)]
  simp only [← EReal.coe_mul, ← EReal.coe_sub, ← EReal.coe_add, coe_sum]
  exact congrArg _ (real_law a b)

end Cert.Score

end
-- ==== Proof.AffineIsScore.lean ====
/-
  The affine map is the score.

  With the weights `W(q,k) = (2·c(q,k) − 1)/1000` and the bias `bias(0,q) = (1000 − Σ_k c(q,k))/1000` computed from a code book
  `c`, the affine map `Σ_k o(n,k)·W(q,k) + bias(0,q)` of a feature array `o` is the reference's score
  `(2·Σ_k o(n,k)·c(q,k) + 1000 − Σ_k o(n,k) − Σ_k c(q,k)) / 1000` at every `(n, q)` — provided every entry of `o` and of `c` is
  real: the step from one to the other distributes the contraction over `2·c − 1`, which is sound for real entries only.
-/
import proofs.«166601_j24867860644037_2_alg».proof.Proof.KernelValue
import proofs.«166601_j24867860644037_2_alg».proof.Proof.ReferenceScore
import proofs.«166601_j24867860644037_2_alg».proof.Proof.ScoreLaw
import proofs.«166601_j24867860644037_2_alg».proof.Proof.LibRealValued

noncomputable section

namespace Cert.Score

open Idealize.ShloMosaic Idealize.ShloMosaic.ValueIdx Cert.Lib.RealValued
open Cert.KernelIdeal (S16384x1000 S1000x1000 S1x1000)

/-- For real entries, the affine map over the weights and bias of a code book is the reference's score array. -/
theorem affine_eq_score (o : FVec Ideal S16384x1000 .f32) (cb : FVec Ideal S1000x1000 .f32)
    (W : FVec Ideal S1000x1000 .bf16) (bias : FVec Ideal S1x1000 .f32)
    (hW : ∀ q k : Fin 1000, W (ix2 q k)
      = Ideal.div (Ideal.ofBits .f32 0x40000000#32 * cb (ix2 q k) - Ideal.ofBits .f32 0x3F800000#32) (Ideal.ofBits .f32 0x447A0000#32))
    (hbias : ∀ q : Fin 1000, bias (ix2 (0 : Fin 1) q)
      = Ideal.div (Ideal.ofBits .f32 0x447A0000#32 - (Ideal.ofBits .f32 0x00000000#32 + ∑ k : Fin 1000, cb (ix2 q k)))
          (Ideal.ofBits .f32 0x447A0000#32))
    (ho : ∀ i, IsReal (o i)) (hc : ∀ j, IsReal (cb j)) :
    Kernel.affine o W bias = Cert.ReferenceIdeal.Read.val_main_v14 (F := Ideal) o cb := by
  obtain ⟨a, ha⟩ := exists_real_fun ho
  obtain ⟨b, hb⟩ := exists_real_fun hc
  funext i
  obtain ⟨n, q, rfl⟩ : ∃ (n : Fin 16384) (q : Fin 1000), i = ix2 n q := ⟨i 0, i 1, eq_ix2 i⟩
  rw [Reference.score_apply]
  show (∑ k : Fin 1000, o (ix2 n k) * W (ix2 q k)) + bias (ix2 (0 : Fin 1) q) = _
  simp only [hW, hbias, ha, hb]
  exact score_law (fun k => a (ix2 n k)) (fun k => b (ix2 q k))

end Cert.Score

end
-- ==== Proof.lean ====
/-
  The certificate: a feature array `o` of 16384 rows and a square code book `c` of 1000 codes over 1000 features.

  The reference returns, for row `n` and code `q`, the score `(2·Σ_k o(n,k)·c(q,k) + 1000 − Σ_k o(n,k) − Σ_k c(q,k)) / 1000`.
  The kernel first computes on the host, from the code book alone, the weights `W = (2·c − 1)/1000` and the bias row
  `(1000 − Σ_k c(·,k))/1000`, and then, on each of 16 blocks of 1024 rows, one matrix product of the block against the
  weights (contracting the feature axis of both) plus the bias row. Over the extended reals, with every change of
  float format the identity and every literal (0, 1, 2, 1000) exact, the kernel's result is the affine map
  `Σ_k o(n,k)·W(q,k) + bias(q)`, and distributing the contraction over `2·c − 1` turns it into the score. Distributivity
  fails at the infinities, so this is where the precondition — every input entry finite — is used: finite entries are
  real numbers, and the identity is one of real arithmetic.

  The three frames are the generated ones (the reference's is its generated run with the result dropped); the
  idealization rewrote nothing, so `preserves` is trivial; `algebraic` sets the kernel's run (its result array the affine
  map: Proof/KernelValue.lean) beside the reference's run (its result the score array: Proof/ReferenceScore.lean) and
  joins them by Proof/AffineIsScore.lean, with the weights and bias read off the host operations
  (Proof/KernelGlue.lean) and reality from the precondition (Proof/FiniteInputs.lean).
-/
import proofs.«166601_j24867860644037_2_alg».proof.Defs
import proofs.«166601_j24867860644037_2_alg».proof.Proof.Gen.Kernel
import proofs.«166601_j24867860644037_2_alg».proof.Proof.Gen.Kernel.Skeleton
import proofs.«166601_j24867860644037_2_alg».proof.Proof.Gen.Kernel.Launch
import proofs.«166601_j24867860644037_2_alg».proof.Proof.Gen.Kernel.Points
import proofs.«166601_j24867860644037_2_alg».proof.Proof.Gen.Kernel.Frame
import proofs.«166601_j24867860644037_2_alg».proof.Proof.Gen.KernelIdeal
import proofs.«166601_j24867860644037_2_alg».proof.Proof.Gen.KernelIdeal.Skeleton
import proofs.«166601_j24867860644037_2_alg».proof.Proof.Gen.KernelIdeal.Launch
import proofs.«166601_j24867860644037_2_alg».proof.Proof.Gen.KernelIdeal.Points
import proofs.«166601_j24867860644037_2_alg».proof.Proof.Gen.KernelIdeal.Frame
import proofs.«166601_j24867860644037_2_alg».proof.Proof.Gen.ReferenceIdeal
import proofs.«166601_j24867860644037_2_alg».proof.Proof.Gen.Pre_finite_inputs
import proofs.«166601_j24867860644037_2_alg».proof.Proof.Gen.KernelIdeal.Value
import proofs.«166601_j24867860644037_2_alg».proof.Proof.Gen.ReferenceIdeal.Run
import proofs.«166601_j24867860644037_2_alg».proof.Proof.Gen.ReferenceIdeal.Read
import proofs.«166601_j24867860644037_2_alg».proof.Proof.FiniteInputs
import proofs.«166601_j24867860644037_2_alg».proof.Proof.KernelGlue
import proofs.«166601_j24867860644037_2_alg».proof.Proof.KernelValue
import proofs.«166601_j24867860644037_2_alg».proof.Proof.AffineIsScore
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end at the score array of the kernel's arguments: the kernel's at the affine map, which is the score for
    real entries; the reference's at the score of its own arguments, which agree with the kernel's. -/
theorem algebraic : Cert.algebraic_KernelIdeal_ReferenceIdeal := by
  intro m ρ m' ρ' hpre hagree
  refine ⟨fun c => Cert.ReferenceIdeal.Read.val_main_v14 (F := Ideal) (Cert.Score.Glue.features m c) (Cert.Score.Glue.codeBook m c), ?_, ?_⟩
  · refine (θ_run Cert.KernelIdeal.defs _ _).mono (fun r h c => ⟨(h c).1.trans ?_, (h c).2⟩) (Cert.Score.Kernel.run m ρ)
    obtain ⟨ho, hc⟩ := Cert.Score.real_of_pre _ _ (hpre c)
    exact Cert.Score.affine_eq_score _ _ _ _ (Cert.Score.Glue.weights_apply m c) (Cert.Score.Glue.bias_apply m c) ho hc
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.ReferenceIdeal.Read.val_main_v14_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
